-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048x2 : Shape := ⟨3, ![8192, 2048, 2]⟩
abbrev S8192x2048 : Shape := ⟨2, ![8192, 2048]⟩
abbrev S_ : Shape := ⟨0, ![]⟩

class Facts : Prop where
  bcast_S_S8192x2048x2 : S_.BroadcastsInDim S8192x2048x2 (![] : Fin 0 → Fin S8192x2048x2.rank)
  reducesTo_S8192x2048x2_S_d0_1_2 : S8192x2048x2.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x2048x2 .f32) (main_arg1 : FVec F S8192x2048 .f32) (main_arg2 : FVec F S8192x2048x2 .f32) : IVec S_ 1 :=
  let main_v0 : FVec F S8192x2048x2 .f32 := Host.absf main_arg0
  let main_cst : FVec F S_ .f32 := constant S_ .f32 0x7F800000#32
  let main_v1 : FVec F S8192x2048x2 .f32 := broadcastInDim S8192x2048x2 ![] bcast_S_S8192x2048x2 main_cst
  let main_v2 : IVec S8192x2048x2 1 := cmpf .olt main_v0 main_v1
  let main_c : IVec S_ 1 := constantI S_ 1 1#1
  let main_v3 : IVec S_ 1 := (fun x v => Host.reduce IntOp.andi x v reducesTo_S8192x2048x2_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048x2 .f32 := Host.absf main_arg2
  let main_cst_2 : FVec F S_ .f32 := constant S_ .f32 0x7F800000#32
  let main_v10 : FVec F S8192x2048x2 .f32 := broadcastInDim S8192x2048x2 ![] bcast_S_S8192x2048x2 main_cst_2
  let main_v11 : IVec S8192x2048x2 1 := cmpf .olt main_v9 main_v10
  let main_c_3 : IVec S_ 1 := constantI S_ 1 1#1
  let main_v12 : IVec S_ 1 := (fun x v => Host.reduce IntOp.andi x v reducesTo_S8192x2048x2_S_d0_1_2 h_S_) main_v11 main_c_3
  let main_v13 : IVec S_ 1 := andi main_v8 main_v12
  main_v13
-- ==== Kernel.lean ====
abbrev S8192x2048x2 : Shape := ⟨3, ![8192, 2048, 2]⟩
abbrev S8192x2048 : Shape := ⟨2, ![8192, 2048]⟩
abbrev S8192x2048x1 : Shape := ⟨3, ![8192, 2048, 1]⟩
abbrev S128x2048 : Shape := ⟨2, ![128, 2048]⟩

abbrev nBuf : Space → Nat
  | .hbm => 16
  | .vmem => 14
  | .smem => 0
  | _ => 0

abbrev bufTy : (tb : Table) → Fin (tcTables nBuf tb) → BufTy
  | .hbm, ⟨0, _⟩ => ⟨S8192x2048x2, .f32⟩
  | .hbm, ⟨1, _⟩ => ⟨S8192x2048, .f32⟩
  | .hbm, ⟨2, _⟩ => ⟨S8192x2048x2, .f32⟩
  | .hbm, ⟨3, _⟩ => ⟨S8192x2048x1, .f32⟩
  | .hbm, ⟨4, _⟩ => ⟨S8192x2048, .f32⟩
  | .hbm, ⟨5, _⟩ => ⟨S8192x2048x1, .f32⟩
  | .hbm, ⟨6, _⟩ => ⟨S8192x2048, .f32⟩
  | .hbm, ⟨7, _⟩ => ⟨S8192x2048x1, .f32⟩
  | .hbm, ⟨8, _⟩ => ⟨S8192x2048, .f32⟩
  | .hbm, ⟨9, _⟩ => ⟨S8192x2048x1, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048x1, .f32⟩
  | .hbm, ⟨14, _⟩ => ⟨S8192x2048x1, .f32⟩
  | .hbm, ⟨15, _⟩ => ⟨S8192x2048x2, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S8192x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  bcast_S8192x2048_S8192x2048x1_0_1 : S8192x2048.BroadcastsInDim S8192x2048x1 (![0, 1] : Fin 2 → Fin S8192x2048x1.rank)
  concatenates_S8192x2048x1_S8192x2048x1_S8192x2048x2_d2 : Shape.Concatenates [S8192x2048x1, S8192x2048x1] S8192x2048x2 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S8192x2048.size a
  hwx0_2 : ∀ i : grid0.Coords, EltTy.bits .f32 = 32 ∨ (Rect.block (s := S8192x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S8192x2048.size a
  hwx0_3 : ∀ i : grid0.Coords, EltTy.bits .f32 = 32 ∨ (Rect.block (s := S8192x2048) S128x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S8192x2048.size a
  hwx0_4 : ∀ i : grid0.Coords, EltTy.bits .f32 = 32 ∨ (Rect.block (s := S8192x2048) S128x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S8192x2048.size a
  hwx0_5 : ∀ i : grid0.Coords, EltTy.bits .f32 = 32 ∨ (Rect.block (s := S8192x2048) S128x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2048.size a ≤ S8192x2048.size a
  hwx0_6 : ∀ i : grid0.Coords, EltTy.bits .f32 = 32 ∨ (Rect.block (s := S8192x2048) S128x2048.size (cc0_transform_6 i) (hinb0_6 i)).WholeWords (EltTy.packing .f32)

variable [Facts₀]

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S128x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S128x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048x2 : Shape := ⟨3, ![8192, 2048, 2]⟩
abbrev S8192x2048 : Shape := ⟨2, ![8192, 2048]⟩
abbrev S8192x2048x1 : Shape := ⟨3, ![8192, 2048, 1]⟩
abbrev S_ : Shape := ⟨0, ![]⟩

abbrev nBuf : Space → Nat
  | .hbm => 86
  | .vmem => 0
  | .smem => 0
  | _ => 0

abbrev bufTy : (tb : Table) → Fin (tcTables nBuf tb) → BufTy
  | .hbm, ⟨0, _⟩ => ⟨S8192x2048x2, .f32⟩
  | .hbm, ⟨1, _⟩ => ⟨S8192x2048, .f32⟩
  | .hbm, ⟨2, _⟩ => ⟨S8192x2048x2, .f32⟩
  | .hbm, ⟨3, _⟩ => ⟨S8192x2048x1, .f32⟩
  | .hbm, ⟨4, _⟩ => ⟨S8192x2048, .f32⟩
  | .hbm, ⟨5, _⟩ => ⟨S8192x2048x1, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .i1⟩
  | .hbm, ⟨10, _⟩ => ⟨S_, .f32⟩
  | .hbm, ⟨11, _⟩ => ⟨S8192x2048, .f32⟩
  | .hbm, ⟨12, _⟩ => ⟨S8192x2048, .i1⟩
  | .hbm, ⟨13, _⟩ => ⟨S_, .f32⟩
  | .hbm, ⟨14, _⟩ => ⟨S8192x2048, .f32⟩
  | .hbm, ⟨15, _⟩ => ⟨S8192x2048, .i1⟩
  | .hbm, ⟨16, _⟩ => ⟨S_, .f32⟩
  | .hbm, ⟨17, _⟩ => ⟨S8192x2048, .f32⟩
  | .hbm, ⟨18, _⟩ => ⟨S8192x2048, .i1⟩
  | .hbm, ⟨19, _⟩ => ⟨S8192x2048, .i1⟩
  | .hbm, ⟨20, _⟩ => ⟨S8192x2048, .f32⟩
  | .hbm, ⟨21, _⟩ => ⟨S_, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048x1, .f32⟩
  | .hbm, ⟨59, _⟩ => ⟨S8192x2048, .f32⟩
  | .hbm, ⟨60, _⟩ => ⟨S8192x2048x1, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S_, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S_, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S_, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S8192x2048x1, .f32⟩
  | .hbm, ⟨84, _⟩ => ⟨S8192x2048x1, .f32⟩
  | .hbm, ⟨85, _⟩ => ⟨S8192x2048x2, .f32⟩
  | _, _ => ⟨S8192x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_cst_5 : Ref sig .tc := ⟨.hbm, 30, rfl⟩
abbrev main_call2_v0 : Ref sig .tc := ⟨.hbm, 31, rfl⟩
abbrev main_call2_v1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_call3_v0 : Ref sig .tc := ⟨.hbm, 38, rfl⟩
abbrev main_call3_v1 : Ref sig .tc := ⟨.hbm, 39, rfl⟩
abbrev main_v21 : Ref sig .tc := ⟨.hbm, 40, rfl⟩
abbrev main_cst_7 : Ref sig .tc := ⟨.hbm, 41, rfl⟩
abbrev main_call4_v0 : Ref sig .tc := ⟨.hbm, 42, rfl⟩
abbrev main_call4_v1 : Ref sig .tc := ⟨.hbm, 43, rfl⟩
abbrev main_v22 : Ref sig .tc := ⟨.hbm, 44, rfl⟩
abbrev main_cst_8 : Ref sig .tc := ⟨.hbm, 45, rfl⟩
abbrev main_call5_v0 : Ref sig .tc := ⟨.hbm, 46, rfl⟩
abbrev main_call5_v1 : Ref sig .tc := ⟨.hbm, 47, rfl⟩
abbrev main_v23 : Ref sig .tc := ⟨.hbm, 48, rfl⟩
abbrev main_cst_9 : Ref sig .tc := ⟨.hbm, 49, rfl⟩
abbrev main_call6_v0 : Ref sig .tc := ⟨.hbm, 50, rfl⟩
abbrev main_call6_v1 : Ref sig .tc := ⟨.hbm, 51, rfl⟩
abbrev main_v24 : Ref sig .tc := ⟨.hbm, 52, rfl⟩
abbrev main_cst_10 : Ref sig .tc := ⟨.hbm, 53, rfl⟩
abbrev main_call7_v0 : Ref sig .tc := ⟨.hbm, 54, rfl⟩
abbrev main_call7_v1 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_11 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_12 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_13 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_14 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩

abbrev nD : Nat := 1
abbrev τ : Topo := Topo.v7x

variable {F : FTy → Type} [FloatOps F]

class Facts₀ : Prop where
  slices_S8192x2048x2_S8192x2048x1_0_0_0 : S8192x2048x2.Slices ![0, 0, 0] S8192x2048x1
  shapeCasts_S8192x2048x1_S8192x2048 : S8192x2048x1.ShapeCasts S8192x2048
  slices_S8192x2048x2_S8192x2048x1_0_0_1 : S8192x2048x2.Slices ![0, 0, 1] S8192x2048x1
  bcast_S_S8192x2048 : S_.BroadcastsInDim S8192x2048 (![] : Fin 0 → Fin S8192x2048.rank)
  bcast_S8192x2048_S8192x2048x1_0_1 : S8192x2048.BroadcastsInDim S8192x2048x1 (![0, 1] : Fin 2 → Fin S8192x2048x1.rank)
  concatenates_S8192x2048x1_S8192x2048x1_S8192x2048x2_d2 : Shape.Concatenates [S8192x2048x1, S8192x2048x1] S8192x2048x2 2

variable [Facts₀]

class Facts : Prop extends Facts₀ where

variable [Facts]
-- ==== Proof.BoundStep.lean ====
/-
  One step of interval bound tightening through a ReLU, as a function of five numbers.

  A neuron's pre-activation is known to lie in [l, u]; the previous layer's bounds are [ll, lu]; β is a free
  slope parameter for the lower relaxation. Three cases, decided by the signs of l and u:
    · inactive  (u ≤ 0): the ReLU outputs 0;
    · active    (l > 0): the ReLU is the identity;
    · unstable  (u > 0 and l < 0): the ReLU is enclosed between the line of slope β through the origin (below)
      and the chord from (l, 0) to (u, u) (above), which has slope u / (u - l) and intercept -l·u / (u - l).
  Back-substituting those linear relaxations one layer gives candidate bounds
      lower' = max(s, 0)·ll + min(s, 0)·lu            with s the lower slope (0, 1 or β by case),
      upper' = max(λ, 0)·lu + min(λ, 0)·ll + μ        with λ, μ the chord's slope and intercept (by case),
  and the result keeps whichever is tighter: max(cur_l, lower'), min(cur_u, upper'), where [cur_l, cur_u] is the
  plain interval image of [l, u] under the ReLU.

  Everything here is written over an arbitrary float instance with the scalar operations' own names, so that it is
  the same expression tree whether the operations are exact extended-real ones or not; the only fact that
  needs the extended reals is the last lemma: negating x is subtracting x from zero (it holds at ±∞ as well, since
  0 + (-x) = -x for every extended real x, so no finiteness is needed).
-/
import Idealize.ShloMosaic.PureOps.Ideal
import Idealize.ShloMosaic.PureOps.Ideal.Laws

noncomputable section

namespace Cert.ReluBounds

open Idealize.ShloMosaic

variable {F : FTy → Type} [FloatOps F]

/-- The number 0, as the float word of +0.0. -/
abbrev zero : F .f32 := FloatOps.ofBits .f32 0x00000000#32
/-- The number 1, as the float word of 1.0. -/
abbrev one : F .f32 := FloatOps.ofBits .f32 0x3F800000#32

/-- The ReLU is identically zero on the interval: u ≤ 0. -/
def inactive (u : F .f32) : BitVec 1 := FloatOps.cmpf .ole u zero
/-- The ReLU is the identity on the interval: l > 0. -/
def active (l : F .f32) : BitVec 1 := FloatOps.cmpf .ogt l zero
/-- The interval straddles the kink: u > 0 and l < 0. -/
def unstable (l u : F .f32) : BitVec 1 := IntOp.andi (FloatOps.cmpf .ogt u zero) (FloatOps.cmpf .olt l zero)

/-- The interval's width u - l where it straddles the kink, and 1 elsewhere (a divisor that is never zero there). -/
def width (l u : F .f32) : F .f32 := Scalar.select (unstable l u) (FloatOps.subf u l) one

/-- The upper relaxation's slope λ: 1 if active, the chord's slope u / (u - l) if unstable, 0 if inactive. -/
def chordSlope (l u : F .f32) : F .f32 :=
  Scalar.select (active l) one (Scalar.select (unstable l u) (FloatOps.divf u (width l u)) zero)

/-- The upper relaxation's intercept μ: the chord's, (0 - l)·u / (u - l), if unstable, and 0 otherwise. -/
def chordIntercept (l u : F .f32) : F .f32 :=
  Scalar.select (unstable l u) (FloatOps.divf (FloatOps.mulf (FloatOps.subf zero l) u) (width l u)) zero

/-- The lower relaxation's slope s: 0 if inactive, else 1 if active, else the free parameter β. -/
def lowerSlope (l u β : F .f32) : F .f32 :=
  Scalar.select (inactive u) zero (Scalar.select (active l) one β)

/-- The tightened lower bound: the larger of the interval image's lower end (l if active, else 0) and the
    back-substituted max(s, 0)·ll + min(s, 0)·lu. -/
def tightLower (l u β ll lu : F .f32) : F .f32 :=
  FloatOps.maximumf (Scalar.select (active l) l zero)
    (FloatOps.addf (FloatOps.mulf (FloatOps.maximumf (lowerSlope l u β) zero) ll)
      (FloatOps.mulf (FloatOps.minimumf (lowerSlope l u β) zero) lu))

/-- The tightened upper bound: the smaller of the interval image's upper end (u if active or unstable, else 0) and
    the back-substituted max(λ, 0)·lu + min(λ, 0)·ll + μ. -/
def tightUpper (l u ll lu : F .f32) : F .f32 :=
  FloatOps.minimumf (Scalar.select (active l) u (Scalar.select (unstable l u) u zero))
    (FloatOps.addf
      (FloatOps.addf (FloatOps.mulf (FloatOps.maximumf (chordSlope l u) zero) lu)
        (FloatOps.mulf (FloatOps.minimumf (chordSlope l u) zero) ll))
      (chordIntercept l u))

/-- On the extended reals the host's negation of x is 0 - x: both are -x, at the infinities too. -/
theorem hostNeg_eq_zero_sub (x : Ideal .f32) : FloatOps.hostNegf x = FloatOps.subf (zero (F := Ideal)) x := by
  simp only [zero, Ideal.hostNegf_def, Ideal.negf_def, Ideal.subf_def, Ideal.ofBits_def, Ideal.ofBits_zero_f32, zero_sub]

/-- On the extended reals the host's quotient is the vector unit's: one division. -/
theorem hostDiv_eq_div (x y : Ideal .f32) : FloatOps.hostDivf x y = FloatOps.divf x y := rfl

end Cert.ReluBounds

end
-- ==== Proof.BodyAtIndex.lean ====
/-
  What the kernel body stores, entry by entry.

  The body loads five [128, 2048] blocks — l, u, β, ll, lu — and stores two: every operation between the loads and
  the stores is entrywise (comparisons with a splat 0, selects, +, -, ·, /, max, min), and the casts between a block
  and itself are the identity. So entry j of the first stored block is the tightened lower bound of the five loaded
  entries at j, and entry j of the second is the tightened upper bound of l, u, ll, lu at j (β does not enter it).
-/
import proofs.«145702_j45646912422319_2_alg».proof.Proof.Gen.KernelIdeal.Skeleton
import proofs.«145702_j45646912422319_2_alg».proof.Proof.BoundStep
import Idealize.ShloMosaic.Lib.Pipeline.Value

noncomputable section

namespace Cert.ReluBounds

open Idealize.ShloMosaic Cert.KernelIdeal Cert.KernelIdeal.Gen

variable {F : FTy → Type} [FloatOps F]

/-- The first store's value at an entry: the tightened lower bound of the loaded entries. -/
theorem lowerPayload_apply (l u β ll lu : Vec F S128x2048 .f32) (j : S128x2048.Idx) :
    k0_pay1 (k0_pay3 l) (k0_pay5 ll) (k0_pay6 lu) (k0_pay7 l) (k0_pay12 l u β) (k0_pay13 (F := F)) j
      = tightLower (l j) (u j) (β j) (ll j) (lu j) := by
  unfold k0_pay1 k0_pay12 k0_pay13 k0_pay7 k0_pay3 k0_pay4 k0_pay5 k0_pay6
  simp only [shapeCast_self]
  rfl

/-- The second store's value at an entry: the tightened upper bound of the loaded entries. -/
theorem upperPayload_apply (l u ll lu : Vec F S128x2048 .f32) (j : S128x2048.Idx) :
    k0_pay2 (k0_pay4 u) (k0_pay5 ll) (k0_pay6 lu) (k0_pay7 l) (k0_pay8 l u) (k0_pay10 l u) (k0_pay11 l u) j
      = tightUpper (l j) (u j) (ll j) (lu j) := by
  unfold k0_pay2 k0_pay10 k0_pay11 k0_pay9 k0_pay8 k0_pay7 k0_pay3 k0_pay4 k0_pay5 k0_pay6
  simp only [shapeCast_self]
  rfl

end Cert.ReluBounds

end
-- ==== Proof.OutputArrays.lean ====
/-
  From blocks to arrays: what the two output arrays hold when the kernel's grid has run.

  The grid has 64 points; at point t every window — the five inputs l, u, β, ll, lu and the two outputs — has the
  block of rows 128·t … 128·t + 127, all 2048 columns, of its [8192, 2048] array. The body turns the five input blocks
  into the two output blocks entry by entry, so what point t writes back is block t of ONE whole-array function of the
  five input arrays: the tightened lower (upper) bound taken entrywise. The 64 blocks tile the array, so after the
  run each output array IS that function of the input arrays, whatever the order the points ran in.
-/
import proofs.«145702_j45646912422319_2_alg».proof.Proof.Gen.KernelIdeal.Frame
import proofs.«145702_j45646912422319_2_alg».proof.Proof.BodyAtIndex
import Idealize.ShloMosaic.Lib.Pipeline.Value

set_option maxRecDepth 16384

noncomputable section

namespace Cert.ReluBounds

open Idealize.ShloMosaic Idealize.ShloMosaic.TcCoe Idealize.SL.Sem
open Idealize.ShloMosaic.Pipeline (Dat)
open Cert.KernelIdeal Cert.KernelIdeal.Gen

variable {F : FTy → Type} [FloatOps F]

/-- The tightened lower bound, entrywise over five [8192, 2048] arrays. -/
abbrev lowerArray (L U B LL LU : S8192x2048.Idx → Elt F .f32) : S8192x2048.Idx → Elt F .f32 :=
  fun i => tightLower (L i) (U i) (B i) (LL i) (LU i)
/-- The tightened upper bound, entrywise over four [8192, 2048] arrays. -/
abbrev upperArray (L U LL LU : S8192x2048.Idx → Elt F .f32) : S8192x2048.Idx → Elt F .f32 :=
  fun i => tightUpper (L i) (U i) (LL i) (LU i)

/-- The body's loads and stores start at the origin of their buffers. -/
theorem origin_eq : (![0, 0] : Fin 2 → Nat) = fun _ => 0 := funext fun a => by fin_cases a <;> rfl

variable (m : (ℓ : Loc nD τ sig) → Buf (Elt F) ℓ)

/-! ## The lower bounds' array (output window 5) -/

/-- The printed index maps, decided once over the 64 grid points: every input window's block sits at the output
    window's block index on both axes. -/
theorem same_blocks5 : ∀ t : Fin cfg0.N, win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = win0_5.index t (1 : Fin 2)
    ∧ win0_2.index t (0 : Fin 2) = win0_5.index t (0 : Fin 2) ∧ win0_2.index t (1 : Fin 2) = win0_5.index t (1 : Fin 2)
    ∧ win0_3.index t (0 : Fin 2) = win0_5.index t (0 : Fin 2) ∧ win0_3.index t (1 : Fin 2) = win0_5.index t (1 : Fin 2)
    ∧ win0_4.index t (0 : Fin 2) = win0_5.index t (0 : Fin 2) ∧ win0_4.index t (1 : Fin 2) = win0_5.index t (1 : Fin 2) :=
  (by decide +kernel : ∀ t : Fin grid0.N, _)

/-- Every row-block 0 … 63 of the array is some grid point's. -/
theorem every_block5 : ∀ (q0 : Fin 64) (q1 : Fin 1), ∃ t : Fin cfg0.N, win0_5.index t = ![q0.val + 0, q1.val + 0] :=
  (by decide +kernel : ∀ (q0 : Fin 64) (q1 : Fin 1), ∃ t : Fin grid0.N, win0_5.index t = ![q0.val + 0, q1.val + 0])

/-- What grid point `t` writes back is block `t` of the lower-bound array: the body's stored entry is the tightened
    lower bound of its loaded entries, and each loaded block is its array read at the output block's own indices. -/
theorem lowerFlushed_eq (c : Dev nD) (t : Fin cfg0.N) :
    (dats m 0 c).flushed 5 t = ((cfg0.win 5).blk t).view.read (Elt F) (lowerArray (V m c main_v1) (V m c main_v3) (V m c main_arg1) (V m c main_v5) (V m c main_v7)) := by
  show (cfg0.win 5).cut (grid0.coords t) ((dats m 0 c).after 5 t) = _
  rw [after0_5]
  unfold out0_5
  rw [View.canon_unit_zero origin_eq]
  simp only [View.ld_unit_zero (S := S128x2048) origin_eq]
  obtain ⟨e00, e01, e10, e11, e20, e21, e30, e31, e40, e41⟩ := same_blocks5 t
  funext j
  refine (lowerPayload_apply (F := F) (iblk m c 0 t) (iblk m c 1 t) (iblk m c 2 t) (iblk m c 3 t) (iblk m c 4 t) j).trans ?_
  show tightLower (V m c main_v1 (((cfg0.win 0).blk t).view.emb j)) (V m c main_v3 (((cfg0.win 1).blk t).view.emb j)) (V m c main_arg1 (((cfg0.win 2).blk t).view.emb j)) (V m c main_v5 (((cfg0.win 3).blk t).view.emb j)) (V m c main_v7 (((cfg0.win 4).blk t).view.emb j)) = tightLower (V m c main_v1 (((cfg0.win 5).blk t).view.emb j)) (V m c main_v3 (((cfg0.win 5).blk t).view.emb j)) (V m c main_arg1 (((cfg0.win 5).blk t).view.emb j)) (V m c main_v5 (((cfg0.win 5).blk t).view.emb j)) (V m c main_v7 (((cfg0.win 5).blk t).view.emb j))
  have h0 : ((cfg0.win 0).blk t).view.emb j = ((cfg0.win 5).blk t).view.emb j := by
    funext a; apply Fin.ext
    match a with
    | ⟨0, _⟩ => show win0_0.index t (0 : Fin 2) * 128 + 1 * (j 0).val = win0_5.index t (0 : Fin 2) * 128 + 1 * (j 0).val; omega
    | ⟨1, _⟩ => show win0_0.index t (1 : Fin 2) * 2048 + 1 * (j 1).val = win0_5.index t (1 : Fin 2) * 2048 + 1 * (j 1).val; omega
  have h1 : ((cfg0.win 1).blk t).view.emb j = ((cfg0.win 5).blk t).view.emb j := by
    funext a; apply Fin.ext
    match a with
    | ⟨0, _⟩ => show win0_1.index t (0 : Fin 2) * 128 + 1 * (j 0).val = win0_5.index t (0 : Fin 2) * 128 + 1 * (j 0).val; omega
    | ⟨1, _⟩ => show win0_1.index t (1 : Fin 2) * 2048 + 1 * (j 1).val = win0_5.index t (1 : Fin 2) * 2048 + 1 * (j 1).val; omega
  have h2 : ((cfg0.win 2).blk t).view.emb j = ((cfg0.win 5).blk t).view.emb j := by
    funext a; apply Fin.ext
    match a with
    | ⟨0, _⟩ => show win0_2.index t (0 : Fin 2) * 128 + 1 * (j 0).val = win0_5.index t (0 : Fin 2) * 128 + 1 * (j 0).val; omega
    | ⟨1, _⟩ => show win0_2.index t (1 : Fin 2) * 2048 + 1 * (j 1).val = win0_5.index t (1 : Fin 2) * 2048 + 1 * (j 1).val; omega
  have h3 : ((cfg0.win 3).blk t).view.emb j = ((cfg0.win 5).blk t).view.emb j := by
    funext a; apply Fin.ext
    match a with
    | ⟨0, _⟩ => show win0_3.index t (0 : Fin 2) * 128 + 1 * (j 0).val = win0_5.index t (0 : Fin 2) * 128 + 1 * (j 0).val; omega
    | ⟨1, _⟩ => show win0_3.index t (1 : Fin 2) * 2048 + 1 * (j 1).val = win0_5.index t (1 : Fin 2) * 2048 + 1 * (j 1).val; omega
  have h4 : ((cfg0.win 4).blk t).view.emb j = ((cfg0.win 5).blk t).view.emb j := by
    funext a; apply Fin.ext
    match a with
    | ⟨0, _⟩ => show win0_4.index t (0 : Fin 2) * 128 + 1 * (j 0).val = win0_5.index t (0 : Fin 2) * 128 + 1 * (j 0).val; omega
    | ⟨1, _⟩ => show win0_4.index t (1 : Fin 2) * 2048 + 1 * (j 1).val = win0_5.index t (1 : Fin 2) * 2048 + 1 * (j 1).val; omega
  rw [h0, h1, h2, h3, h4]

/-- An index of the array is in point `t`'s block iff each coordinate is in the block's range on its axis. -/
theorem lowerBlock_mem (t : Fin cfg0.N) (i : S8192x2048.Idx) :
    i ∈ ((cfg0.win 5).blk t).view.set ↔ ∀ a : Fin 2, win0_5.index t a * S128x2048.size a ≤ (i a).val ∧ (i a).val < win0_5.index t a * S128x2048.size a + S128x2048.size a := by
  show i ∈ ((View.whole main_v8_0).slice (win0_5.rect t)).set ↔ _
  rw [View.set_slice_whole, Rect.mem_set_unit]
  exact Iff.rfl

/-- The 64 blocks of 128 whole rows tile the [8192, 2048] array: row r is in the block of point r / 128. -/
theorem lowerBlocks_cover (i : S8192x2048.Idx) :
    ∃ t : Fin cfg0.N, (cfg0.win 5).flush t = true ∧ i ∈ ((cfg0.win 5).blk t).view.set := by
  have hi0 : (i 0).val < 8192 := (i 0).isLt
  have hi1 : (i 1).val < 2048 := (i 1).isLt
  obtain ⟨t, ht⟩ := every_block5 ⟨(i 0).val / 128, by omega⟩ ⟨0, by omega⟩
  have q0 : win0_5.index t (0 : Fin 2) = (i 0).val / 128 + 0 := congrFun ht 0
  have q1 : win0_5.index t (1 : Fin 2) = 0 + 0 := congrFun ht 1
  refine ⟨t, flush0_5 t, ?_⟩
  rw [lowerBlock_mem]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 2048 ≤ (i 1).val ∧ (i 1).val < win0_5.index t (1 : Fin 2) * 2048 + 2048; omega

/-- The array after the run: the tightened lower bound, entry by entry, of the five arrays the region was given. -/
theorem lowerArray_final (c : Dev nD) :
    (dats m 0 c).arrAt 5 cfg0.N = lowerArray (V m c main_v1) (V m c main_v3) (V m c main_arg1) (V m c main_v5) (V m c main_v7) :=
  (dats m 0 c).arrAt_eq_of_cover 5 _ (fun t _ => lowerFlushed_eq m c t) (lowerBlocks_cover)

/-! ## The upper bounds' array (output window 6) -/

/-- The printed index maps, decided once over the 64 grid points: every input window's block sits at the output
    window's block index on both axes. -/
theorem same_blocks6 : ∀ t : Fin cfg0.N, win0_0.index t (0 : Fin 2) = win0_6.index t (0 : Fin 2) ∧ win0_0.index t (1 : Fin 2) = win0_6.index t (1 : Fin 2)
    ∧ win0_1.index t (0 : Fin 2) = win0_6.index t (0 : Fin 2) ∧ win0_1.index t (1 : Fin 2) = win0_6.index t (1 : Fin 2)
    ∧ win0_2.index t (0 : Fin 2) = win0_6.index t (0 : Fin 2) ∧ win0_2.index t (1 : Fin 2) = win0_6.index t (1 : Fin 2)
    ∧ win0_3.index t (0 : Fin 2) = win0_6.index t (0 : Fin 2) ∧ win0_3.index t (1 : Fin 2) = win0_6.index t (1 : Fin 2)
    ∧ win0_4.index t (0 : Fin 2) = win0_6.index t (0 : Fin 2) ∧ win0_4.index t (1 : Fin 2) = win0_6.index t (1 : Fin 2) :=
  (by decide +kernel : ∀ t : Fin grid0.N, _)

/-- Every row-block 0 … 63 of the array is some grid point's. -/
theorem every_block6 : ∀ (q0 : Fin 64) (q1 : Fin 1), ∃ t : Fin cfg0.N, win0_6.index t = ![q0.val + 0, q1.val + 0] :=
  (by decide +kernel : ∀ (q0 : Fin 64) (q1 : Fin 1), ∃ t : Fin grid0.N, win0_6.index t = ![q0.val + 0, q1.val + 0])

/-- What grid point `t` writes back is block `t` of the upper-bound array: the body's stored entry is the tightened
    upper bound of its loaded entries, and each loaded block is its array read at the output block's own indices. -/
theorem upperFlushed_eq (c : Dev nD) (t : Fin cfg0.N) :
    (dats m 0 c).flushed 6 t = ((cfg0.win 6).blk t).view.read (Elt F) (upperArray (V m c main_v1) (V m c main_v3) (V m c main_v5) (V m c main_v7)) := by
  show (cfg0.win 6).cut (grid0.coords t) ((dats m 0 c).after 6 t) = _
  rw [after0_6]
  unfold out0_6
  rw [View.canon_unit_zero origin_eq]
  simp only [View.ld_unit_zero (S := S128x2048) origin_eq]
  obtain ⟨e00, e01, e10, e11, e20, e21, e30, e31, e40, e41⟩ := same_blocks6 t
  funext j
  refine (upperPayload_apply (F := F) (iblk m c 0 t) (iblk m c 1 t) (iblk m c 3 t) (iblk m c 4 t) j).trans ?_
  show tightUpper (V m c main_v1 (((cfg0.win 0).blk t).view.emb j)) (V m c main_v3 (((cfg0.win 1).blk t).view.emb j)) (V m c main_v5 (((cfg0.win 3).blk t).view.emb j)) (V m c main_v7 (((cfg0.win 4).blk t).view.emb j)) = tightUpper (V m c main_v1 (((cfg0.win 6).blk t).view.emb j)) (V m c main_v3 (((cfg0.win 6).blk t).view.emb j)) (V m c main_v5 (((cfg0.win 6).blk t).view.emb j)) (V m c main_v7 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 128 + 1 * (j 0).val = win0_6.index t (0 : Fin 2) * 128 + 1 * (j 0).val; omega
    | ⟨1, _⟩ => show win0_0.index t (1 : Fin 2) * 2048 + 1 * (j 1).val = win0_6.index t (1 : Fin 2) * 2048 + 1 * (j 1).val; omega
  have h1 : ((cfg0.win 1).blk t).view.emb j = ((cfg0.win 6).blk t).view.emb j := by
    funext a; apply Fin.ext
    match a with
    | ⟨0, _⟩ => show win0_1.index t (0 : Fin 2) * 128 + 1 * (j 0).val = win0_6.index t (0 : Fin 2) * 128 + 1 * (j 0).val; omega
    | ⟨1, _⟩ => show win0_1.index t (1 : Fin 2) * 2048 + 1 * (j 1).val = win0_6.index t (1 : Fin 2) * 2048 + 1 * (j 1).val; omega
  have h2 : ((cfg0.win 2).blk t).view.emb j = ((cfg0.win 6).blk t).view.emb j := by
    funext a; apply Fin.ext
    match a with
    | ⟨0, _⟩ => show win0_2.index t (0 : Fin 2) * 128 + 1 * (j 0).val = win0_6.index t (0 : Fin 2) * 128 + 1 * (j 0).val; omega
    | ⟨1, _⟩ => show win0_2.index t (1 : Fin 2) * 2048 + 1 * (j 1).val = win0_6.index t (1 : Fin 2) * 2048 + 1 * (j 1).val; omega
  have h3 : ((cfg0.win 3).blk t).view.emb j = ((cfg0.win 6).blk t).view.emb j := by
    funext a; apply Fin.ext
    match a with
    | ⟨0, _⟩ => show win0_3.index t (0 : Fin 2) * 128 + 1 * (j 0).val = win0_6.index t (0 : Fin 2) * 128 + 1 * (j 0).val; omega
    | ⟨1, _⟩ => show win0_3.index t (1 : Fin 2) * 2048 + 1 * (j 1).val = win0_6.index t (1 : Fin 2) * 2048 + 1 * (j 1).val; omega
  have h4 : ((cfg0.win 4).blk t).view.emb j = ((cfg0.win 6).blk t).view.emb j := by
    funext a; apply Fin.ext
    match a with
    | ⟨0, _⟩ => show win0_4.index t (0 : Fin 2) * 128 + 1 * (j 0).val = win0_6.index t (0 : Fin 2) * 128 + 1 * (j 0).val; omega
    | ⟨1, _⟩ => show win0_4.index t (1 : Fin 2) * 2048 + 1 * (j 1).val = win0_6.index t (1 : Fin 2) * 2048 + 1 * (j 1).val; omega
  rw [h0, h1, h3, h4]

/-- An index of the array is in point `t`'s block iff each coordinate is in the block's range on its axis. -/
theorem upperBlock_mem (t : Fin cfg0.N) (i : S8192x2048.Idx) :
    i ∈ ((cfg0.win 6).blk t).view.set ↔ ∀ a : Fin 2, win0_6.index t a * S128x2048.size a ≤ (i a).val ∧ (i a).val < win0_6.index t a * S128x2048.size a + S128x2048.size a := by
  show i ∈ ((View.whole main_v8_1).slice (win0_6.rect t)).set ↔ _
  rw [View.set_slice_whole, Rect.mem_set_unit]
  exact Iff.rfl

/-- The 64 blocks of 128 whole rows tile the [8192, 2048] array: row r is in the block of point r / 128. -/
theorem upperBlocks_cover (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := every_block6 ⟨(i 0).val / 128, by omega⟩ ⟨0, by omega⟩
  have q0 : win0_6.index t (0 : Fin 2) = (i 0).val / 128 + 0 := congrFun ht 0
  have q1 : win0_6.index t (1 : Fin 2) = 0 + 0 := congrFun ht 1
  refine ⟨t, flush0_6 t, ?_⟩
  rw [upperBlock_mem]
  intro a
  match a with
  | ⟨0, _⟩ => show win0_6.index t (0 : Fin 2) * 128 ≤ (i 0).val ∧ (i 0).val < win0_6.index t (0 : Fin 2) * 128 + 128; omega
  | ⟨1, _⟩ => show win0_6.index t (1 : Fin 2) * 2048 ≤ (i 1).val ∧ (i 1).val < win0_6.index t (1 : Fin 2) * 2048 + 2048; omega

/-- The array after the run: the tightened upper bound, entry by entry, of the five arrays the region was given. -/
theorem upperArray_final (c : Dev nD) :
    (dats m 0 c).arrAt 6 cfg0.N = upperArray (V m c main_v1) (V m c main_v3) (V m c main_v5) (V m c main_v7) :=
  (dats m 0 c).arrAt_eq_of_cover 6 _ (fun t _ => upperFlushed_eq m c t) (upperBlocks_cover)

end Cert.ReluBounds

end
-- ==== Proof.KernelRun.lean ====
/-
  The kernel program's run, read as a value.

  Around the grid the program does plain array re-layouts. Before it: the last axis of the first and third
  arguments (length 2: lower end, upper end) is split off, giving four [8192, 2048] arrays l, u, ll, lu; the second
  argument is β as it stands. After it: the two [8192, 2048] output arrays get a unit last axis and are joined along
  it, so entry (r, q, 0) of the result is the first output's (r, q) and entry (r, q, 1) the second's.
  With the output arrays known as entrywise functions of the five input arrays, the result is the join of the
  tightened lower and upper bounds of the split arguments.
-/
import proofs.«145702_j45646912422319_2_alg».proof.Proof.Gen.KernelIdeal.Frame
import proofs.«145702_j45646912422319_2_alg».proof.Proof.OutputArrays
import Idealize.ShloMosaic.Lib.StableHlo.Run
import Idealize.ShloMosaic.Lib.Pipeline.Value

set_option maxRecDepth 16384

noncomputable section

namespace Cert.ReluBounds

open Idealize.ShloMosaic Idealize.ShloMosaic.TcCoe Idealize.SL.Sem Idealize.ShloMosaic.StableHlo
open Idealize.ShloMosaic.Pipeline (Dat)
open Cert.KernelIdeal Cert.KernelIdeal.Gen

variable {F : FTy → Type} [FloatOps F]

/-- Entry (r, q, 0) of an [8192, 2048, 2] array, as an [8192, 2048] array: the lower ends. -/
def lowerEnds (a : (⟨S8192x2048x2, .f32⟩ : BufTy).Contents (Elt F)) : (⟨S8192x2048, .f32⟩ : BufTy).Contents (Elt F) :=
  shapeCast S8192x2048 (extractStridedSlice S8192x2048x1 ![0, 0, 0] a Facts₀.slices_S8192x2048x2_S8192x2048x1_0_0_0)
    Facts₀.shapeCasts_S8192x2048x1_S8192x2048
/-- Entry (r, q, 1) of an [8192, 2048, 2] array, as an [8192, 2048] array: the upper ends. -/
def upperEnds (a : (⟨S8192x2048x2, .f32⟩ : BufTy).Contents (Elt F)) : (⟨S8192x2048, .f32⟩ : BufTy).Contents (Elt F) :=
  shapeCast S8192x2048 (extractStridedSlice S8192x2048x1 ![0, 0, 1] a Facts₀.slices_S8192x2048x2_S8192x2048x1_0_0_1)
    Facts₀.shapeCasts_S8192x2048x1_S8192x2048
/-- Two [8192, 2048] arrays joined along a new last axis of length 2. -/
def joinEnds (a b : (⟨S8192x2048, .f32⟩ : BufTy).Contents (Elt F)) : (⟨S8192x2048x2, .f32⟩ : BufTy).Contents (Elt F) :=
  concatenate S8192x2048x2 2
    [⟨S8192x2048x1, broadcastInDim S8192x2048x1 ![0, 1] Facts₀.bcast_S8192x2048_S8192x2048x1_0_1 a⟩,
     ⟨S8192x2048x1, broadcastInDim S8192x2048x1 ![0, 1] Facts₀.bcast_S8192x2048_S8192x2048x1_0_1 b⟩]
    Facts₀.concatenates_S8192x2048x1_S8192x2048x1_S8192x2048x2_d2

variable (m : (ℓ : Loc nD τ sig) → Buf (Elt F) ℓ) (ρ : Dev nD → PrngReg)

/-! ## The arrays the grid is given -/

/-- The first input array is the first argument's lower ends … -/
theorem given_l (c : Dev nD) : (V m c main_v1 : S8192x2048.Idx → Elt F .f32) = lowerEnds (m ((c : Thread nD τ).loc main_arg0)) := by
  show StableHlo.after hostOps0 (fun b => m (c, b)) (Proc.devRef .tc main_v1) = _
  after_results
  rfl
/-- … the second its upper ends … -/
theorem given_u (c : Dev nD) : (V m c main_v3 : S8192x2048.Idx → Elt F .f32) = upperEnds (m ((c : Thread nD τ).loc main_arg0)) := by
  show StableHlo.after hostOps0 (fun b => m (c, b)) (Proc.devRef .tc main_v3) = _
  after_results
  rfl
/-- … the fourth the third argument's lower ends … -/
theorem given_ll (c : Dev nD) : (V m c main_v5 : S8192x2048.Idx → Elt F .f32) = lowerEnds (m ((c : Thread nD τ).loc main_arg2)) := by
  show StableHlo.after hostOps0 (fun b => m (c, b)) (Proc.devRef .tc main_v5) = _
  after_results
  rfl
/-- … and the fifth its upper ends. (The third is the second argument itself: the generated `V_main_arg1`.) -/
theorem given_lu (c : Dev nD) : (V m c main_v7 : S8192x2048.Idx → Elt F .f32) = upperEnds (m ((c : Thread nD τ).loc main_arg2)) := by
  show StableHlo.after hostOps0 (fun b => m (c, b)) (Proc.devRef .tc main_v7) = _
  after_results
  rfl

/-! ## The result -/

/-- The program's result as a function of its arguments: the tightened bounds of the split arguments, joined. -/
def kernelResult (a0 : (⟨S8192x2048x2, .f32⟩ : BufTy).Contents (Elt F)) (a1 : (⟨S8192x2048, .f32⟩ : BufTy).Contents (Elt F))
    (a2 : (⟨S8192x2048x2, .f32⟩ : BufTy).Contents (Elt F)) : (⟨S8192x2048x2, .f32⟩ : BufTy).Contents (Elt F) :=
  joinEnds (lowerArray (lowerEnds a0) (upperEnds a0) a1 (lowerEnds a2) (upperEnds a2))
    (upperArray (lowerEnds a0) (upperEnds a0) (lowerEnds a2) (upperEnds a2))

/-- What the operations after the grid leave in the result buffer: the join of the two output arrays, each the
    entrywise bound of the arrays the grid was given. -/
theorem tail_eq (c : Dev nD) :
    Pipeline.afterTail₀ cfgs (dats m) 0 (V0 m) [hostOps1] c main_v11
      = kernelResult (m ((c : Thread nD τ).loc main_arg0)) (m ((c : Thread nD τ).loc main_arg1)) (m ((c : Thread nD τ).loc main_arg2)) := by
  unfold Pipeline.afterTail₀
  show StableHlo.after hostOps1 _ (Proc.devRef .tc main_v11) = _
  after_results
  rw [Pipeline.withArrays_arr spec0 launch0.win.arr_inj c _ _ 5, Pipeline.withArrays_arr spec0 launch0.win.arr_inj c _ _ 6]
  show joinEnds ((dats m 0 c).arrAt 5 cfg0.N) ((dats m 0 c).arrAt 6 cfg0.N) = _
  rw [lowerArray_final m c, upperArray_final m c, given_l m c, given_u m c, given_ll m c, given_lu m c, V_main_arg1 m c]
  rfl

/-- The run: every weakly fair execution terminates with the result buffer at `kernelResult` of the arguments and the
    arguments unchanged. -/
theorem kernel_run : θ_run defs (onTc (τ := τ) (main (F := F))) ⟨m, fun _ => 0, ρ⟩ fun r => ∀ c : Dev nD,
      r.2.mem ((c.tc : Thread nD τ).loc main_v11)
        = kernelResult (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c)⟩)
    (run_main m ρ)

end Cert.ReluBounds

end
-- ==== Proof.ReferenceStages.lean ====
/-
  The reference, entry by entry.

  The reference slices the lower and upper halves l, u out of the first argument and ll, lu out of the third, takes
  the second argument as β, and then computes — with whole-array operations, every one of them entrywise — the same
  case analysis and the same two bounds. Read at an entry i of the [8192, 2048] arrays, its next-to-last two
  stages are therefore the tightened lower and upper bounds of the sliced arrays' entries at i.

  Two spellings differ from the kernel body's. The reference negates l where the body subtracts l from a splat 0:
  on the extended reals these are the same number for every l. The reference divides with the host's division
  where the body uses the vector unit's: on the extended reals there is one division. A scalar constant broadcast
  to the whole array reads that constant at every entry.
-/
import proofs.«145702_j45646912422319_2_alg».proof.Proof.Gen.ReferenceIdeal.Read
import proofs.«145702_j45646912422319_2_alg».proof.Proof.BoundStep

noncomputable section

namespace Cert.ReluBounds

open Idealize.ShloMosaic Cert.ReferenceIdeal Cert.ReferenceIdeal.Read

/-- The stage before the lower result's re-layout, at an entry: the tightened lower bound of the sliced entries. -/
theorem refLower_apply (x0 : (⟨S8192x2048x2, .f32⟩ : BufTy).Contents (Elt Ideal)) (x1 : (⟨S8192x2048, .f32⟩ : BufTy).Contents (Elt Ideal))
    (x2 : (⟨S8192x2048x2, .f32⟩ : BufTy).Contents (Elt Ideal)) (i : S8192x2048.Idx) :
    val_main_v46 (F := Ideal) x0 x1 x2 i
      = tightLower (F := Ideal) (val_main_v1 (F := Ideal) x0 i) (val_main_v3 (F := Ideal) x0 i) (x1 i) (val_main_v28 (F := Ideal) x2 i) (val_main_v30 (F := Ideal) x2 i) := by
  simp only [
    val_main_v46_apply, val_main_v24_apply, val_main_call6_v1_apply, val_main_call6_v0_apply,
    val_main_cst_9_apply, val_main_v7_apply, val_main_v6_apply, val_main_cst_0_apply, val_main_v37_apply,
    val_main_v33_apply, val_main_v32_apply, val_main_v23_apply, val_main_call5_v1_apply,
    val_main_call5_v0_apply, val_main_cst_8_apply, val_main_v5_apply, val_main_v4_apply, val_main_cst_apply,
    val_main_v22_apply, val_main_call4_v1_apply, val_main_call4_v0_apply, val_main_cst_7_apply,
    val_main_v31_apply, val_main_cst_11_apply, val_main_v36_apply, val_main_v35_apply, val_main_v34_apply,
    val_main_cst_12_apply]
  rfl

/-- The stage before the upper result's re-layout, at an entry: the tightened upper bound of the sliced entries. -/
theorem refUpper_apply (x0 x2 : (⟨S8192x2048x2, .f32⟩ : BufTy).Contents (Elt Ideal)) (i : S8192x2048.Idx) :
    val_main_v47 (F := Ideal) x0 x2 i
      = tightUpper (F := Ideal) (val_main_v1 (F := Ideal) x0 i) (val_main_v3 (F := Ideal) x0 i) (val_main_v28 (F := Ideal) x2 i) (val_main_v30 (F := Ideal) x2 i) := by
  simp only [
    val_main_v47_apply, val_main_v26_apply, val_main_v25_apply, val_main_call7_v1_apply,
    val_main_call7_v0_apply, val_main_cst_10_apply, val_main_v12_apply, val_main_v9_apply, val_main_v8_apply,
    val_main_cst_1_apply, val_main_v11_apply, val_main_v10_apply, val_main_cst_2_apply, val_main_v7_apply,
    val_main_v6_apply, val_main_cst_0_apply, val_main_v45_apply, val_main_v44_apply, val_main_v40_apply,
    val_main_v39_apply, val_main_v17_apply, val_main_call2_v1_apply, val_main_call2_v0_apply,
    val_main_cst_5_apply, val_main_v16_apply, val_main_call1_v1_apply, val_main_call1_v0_apply,
    val_main_cst_4_apply, val_main_v15_apply, val_main_v14_apply, val_main_call0_v1_apply,
    val_main_call0_v0_apply, val_main_cst_3_apply, val_main_v13_apply, val_main_v38_apply,
    val_main_cst_13_apply, val_main_v43_apply, val_main_v42_apply, val_main_v41_apply, val_main_cst_14_apply,
    val_main_v21_apply, val_main_call3_v1_apply, val_main_call3_v0_apply, val_main_cst_6_apply,
    val_main_v20_apply, val_main_v19_apply, val_main_v18_apply,
    hostNeg_eq_zero_sub]
  rfl

end Cert.ReluBounds

end
-- ==== Proof.SameFunction.lean ====
/-
  The two programs compute one function of their arguments.

  Both split the first and third arguments into lower and upper ends the same way, and both join their two
  [8192, 2048] results along a new last axis the same way. Between the split and the join the reference's two
  arrays are, entry by entry, the tightened lower and upper bounds of the split arrays' entries — which is what the
  kernel's grid leaves in its two output arrays. So the reference's result is the kernel's result function of the
  same arguments.
-/
import proofs.«145702_j45646912422319_2_alg».proof.Proof.KernelRun
import proofs.«145702_j45646912422319_2_alg».proof.Proof.ReferenceStages

set_option maxRecDepth 16384

noncomputable section

namespace Cert.ReluBounds

open Idealize.ShloMosaic
open Cert.ReferenceIdeal Cert.ReferenceIdeal.Read

/-- The reference's result, as the stage-by-stage reading gives it, is the kernel's result function. -/
theorem reference_eq (a0 : (⟨S8192x2048x2, .f32⟩ : BufTy).Contents (Elt Ideal)) (a1 : (⟨S8192x2048, .f32⟩ : BufTy).Contents (Elt Ideal))
    (a2 : (⟨S8192x2048x2, .f32⟩ : BufTy).Contents (Elt Ideal)) :
    val_main_v50 (F := Ideal) a0 a1 a2 = kernelResult (F := Ideal) a0 a1 a2 := by
  have hL : val_main_v46 (F := Ideal) a0 a1 a2
      = lowerArray (F := Ideal) (lowerEnds a0) (upperEnds a0) a1 (lowerEnds a2) (upperEnds a2) :=
    funext fun i => (refLower_apply a0 a1 a2 i).trans rfl
  have hU : val_main_v47 (F := Ideal) a0 a2
      = upperArray (F := Ideal) (lowerEnds a0) (upperEnds a0) (lowerEnds a2) (upperEnds a2) :=
    funext fun i => (refUpper_apply a0 a2 i).trans rfl
  unfold val_main_v50 val_main_v48 val_main_v49
  rw [hL, hU]
  rfl

end Cert.ReluBounds

end
-- ==== Proof.lean ====
/-
  Two programs for one step of interval bound tightening through a ReLU layer — a tiled kernel and a plain
  whole-array reference — compute the same extended-real function of their three arguments
  (bounds [8192, 2048, 2], β [8192, 2048], previous bounds [8192, 2048, 2]).

  The kernel program splits the two bound arrays into their lower and upper ends, runs a 64-point grid over blocks of
  128 whole rows in which every operation is entrywise, and joins the two output arrays along a new last axis; the
  reference does the same split, the same entrywise arithmetic on whole arrays, and the same join. Entry by entry
  both are the tightened bounds of Proof/BoundStep.lean. The one place the two texts differ in substance is the sign
  of l in the chord's intercept: the kernel subtracts l from 0, the reference negates l; on the extended reals
  0 - x = -x for every x, infinite or not, so the precondition (finite inputs) is never opened.

  The modules: BoundStep (the scalar function and that law), BodyAtIndex (the kernel body's stored entries),
  OutputArrays (blocks to whole arrays), KernelRun (the re-layouts around the grid; the kernel program's run as a
  value), ReferenceStages (the reference read at an entry), SameFunction (the two results are one function).
  The three frame claims are the generated frames (the reference's is its generated run with the result dropped); the
  idealized kernel is the printed kernel's own text, so there is nothing for the idealization claim to state.
-/
import proofs.«145702_j45646912422319_2_alg».proof.Defs
import proofs.«145702_j45646912422319_2_alg».proof.Proof.Gen.Kernel
import proofs.«145702_j45646912422319_2_alg».proof.Proof.Gen.Kernel.Skeleton
import proofs.«145702_j45646912422319_2_alg».proof.Proof.Gen.Kernel.Launch
import proofs.«145702_j45646912422319_2_alg».proof.Proof.Gen.Kernel.Points
import proofs.«145702_j45646912422319_2_alg».proof.Proof.Gen.Kernel.Frame
import proofs.«145702_j45646912422319_2_alg».proof.Proof.Gen.KernelIdeal
import proofs.«145702_j45646912422319_2_alg».proof.Proof.Gen.KernelIdeal.Skeleton
import proofs.«145702_j45646912422319_2_alg».proof.Proof.Gen.KernelIdeal.Launch
import proofs.«145702_j45646912422319_2_alg».proof.Proof.Gen.KernelIdeal.Points
import proofs.«145702_j45646912422319_2_alg».proof.Proof.Gen.KernelIdeal.Frame
import proofs.«145702_j45646912422319_2_alg».proof.Proof.Gen.ReferenceIdeal
import proofs.«145702_j45646912422319_2_alg».proof.Proof.Gen.Pre_finite_inputs
import proofs.«145702_j45646912422319_2_alg».proof.Proof.Gen.ReferenceIdeal.Run
import proofs.«145702_j45646912422319_2_alg».proof.Proof.Gen.ReferenceIdeal.Read
import proofs.«145702_j45646912422319_2_alg».proof.Proof.KernelRun
import proofs.«145702_j45646912422319_2_alg».proof.Proof.SameFunction
import Idealize.ShloMosaic.Adequacy
import Idealize.ShloMosaic.Init

noncomputable section

namespace Cert.Proof

open Idealize.ShloMosaic Idealize.ShloMosaic.TcCoe Idealize.SL.Sem

/-- The printed kernel program runs to the end and leaves its arguments as they were. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- So does the reference: its run, with what it says of the result dropped. -/
theorem frame_reference : Cert.frame_ReferenceIdeal :=
  fun m ρ _ => (θ_run Cert.ReferenceIdeal.defs _ _).mono (fun _ h c => (h c).2) (Cert.ReferenceIdeal.Value.run (F := Ideal) m ρ)

/-- From memories that agree on the three arguments both programs end with the result buffer at the same function of
    them: the kernel's by its run read as a value, the reference's by its run and the stage-by-stage reading. -/
theorem algebraic : Cert.algebraic_KernelIdeal_ReferenceIdeal := by
  intro m ρ m' ρ' _ hagree
  refine ⟨_, Cert.ReluBounds.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2]
  exact Cert.ReluBounds.reference_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
